-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S128x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x16 .f32) (main_arg3 : FVec F S144x64 .f32) (main_arg4 : FVec F S64 .f32) (main_arg5 : FVec F S64x64 .f32) (main_arg6 : FVec F S64 .f32) (main_arg7 : FVec F S128x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S144x64 .f32 := Host.absf main_arg3
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S16x64 : Shape := ⟨2, ![16, 64]⟩
abbrev S1x64 : Shape := ⟨2, ![1, 64]⟩
abbrev S8000x64 : Shape := ⟨2, ![8000, 64]⟩
abbrev S8000x16 : Shape := ⟨2, ![8000, 16]⟩
abbrev S5000x64 : Shape := ⟨2, ![5000, 64]⟩

abbrev nBuf : Space → Nat
  | .hbm => 45
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S144x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S64x64, .f32⟩
  | .hbm, ⟨32, _⟩ => ⟨S64x64, .f32⟩
  | .hbm, ⟨33, _⟩ => ⟨S16x64, .f32⟩
  | .hbm, ⟨34, _⟩ => ⟨S1x64, .f32⟩
  | .hbm, ⟨35, _⟩ => ⟨S1x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S64x64, .f32⟩
  | .hbm, ⟨42, _⟩ => ⟨S64x64, .f32⟩
  | .hbm, ⟨43, _⟩ => ⟨S1x64, .f32⟩
  | .hbm, ⟨44, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x16, .f32⟩
  | .local _ .vmem, ⟨5, _⟩ => ⟨S8000x16, .f32⟩
  | .local _ .vmem, ⟨6, _⟩ => ⟨S64x64, .f32⟩
  | .local _ .vmem, ⟨7, _⟩ => ⟨S64x64, .f32⟩
  | .local _ .vmem, ⟨8, _⟩ => ⟨S16x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S144x64_S64x64_0_0 : S144x64.Slices ![0, 0] S64x64
  slices_S144x64_S64x64_64_0 : S144x64.Slices ![64, 0] S64x64
  slices_S144x64_S16x64_128_0 : S144x64.Slices ![128, 0] S16x64
  bcast_S64_S1x64_1 : S64.BroadcastsInDim S1x64 (![1] : Fin 1 → Fin S1x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x16_S8000x16_0_0 : ∀ a, (![0, 0] : Fin 2 → Nat) a + S8000x16.size a ≤ S8000x16.size a
  h_S8000x16 : 0 < S8000x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x16_S16x64_S8000x64_1_0_0_1_n_n_wf : DotDims.WF S8000x16 S16x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S1600000x16.size a
  hwx0_2 : ∀ i : grid0.Coords, EltTy.bits .f32 = 32 ∨ (Rect.block (s := S1600000x16) S8000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S1600000x64.size a
  hwx0_9 : ∀ i : grid0.Coords, EltTy.bits .f32 = 32 ∨ (Rect.block (s := S1600000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S144x64 : Shape := ⟨2, ![144, 64]⟩
abbrev S64 : Shape := ⟨1, ![64]⟩
abbrev S64x64 : Shape := ⟨2, ![64, 64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x144 : Shape := ⟨2, ![1600000, 144]⟩
abbrev S1x64 : Shape := ⟨2, ![1, 64]⟩
abbrev S100000x128 : Shape := ⟨2, ![100000, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S144x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x144, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S1600000x64, .f32⟩
  | .hbm, ⟨46, _⟩ => ⟨S1x64, .f32⟩
  | .hbm, ⟨47, _⟩ => ⟨S1600000x64, .f32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x128, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named. @main is four segments: a stretch of host operations (the two
  row gathers x[src], x[dst], the three row blocks of W1 and the biases re-laid as rows), the edge network over 200
  blocks of 8000 edges, a second stretch (the scatter-add of the messages onto the destination nodes, the two row
  blocks of W3, the last bias as a row), and the node network over 20 blocks of 5000 nodes. Every weakly fair execution
  ends, nothing faulting, with the arguments as launched and the result buffer holding what the last boundary's
  contents give it: the fold of the four segments from the launch memory, read at the result.
-/
import proofs.«130165_j43817256354334_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments, its last thread state read against the final memory at the result buffer as
    well as at the nine arguments. -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The result buffer is the node network's output window: after the run it holds that window's array as the
    twenty write-backs leave it. -/
theorem result_is_window (c : Dev nD) :
    W4 m ρ c (Proc.devRef .tc main_v30) = (dat1 (V3 m ρ) c).arrAt 5 cfg1.N := W4_arr m ρ c 5

/-- The messages buffer, as the second host stretch finds it, is the edge network's output window after its two
    hundred write-backs. -/
theorem messages_is_window (c : Dev nD) :
    W2 m ρ c (Proc.devRef .tc main_v23) = (dat0 (V1 m ρ) c).arrAt 9 cfg0.N := W2_arr m ρ c 9

end Cert.KernelIdeal.RunValue

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«130165_j43817256354334_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Spec.lean ====
/-
  One message-passing layer over the extended reals, a row at a time.

  An edge carries three row vectors: the features a of its source node and b of its destination node (64 numbers
  each) and its own attributes c (16 numbers). The edge network sends them through two layers,

      h_k = silu (a · Wa[:,k] + b · Wb[:,k] + c · Wc[:,k] + b1_k)          (k < 64)
      m_j = silu (h · W2[:,j] + b2_j)                                       (j < 64)

  where silu v = v · σ(v), σ(v) = 1 / (1 + e^(-v)), and Wa, Wb, Wc are the three row blocks (rows 0–63, 64–127, 128–143)
  of one 144-row weight matrix W1. A node with features x and aggregated messages g answers

      y_j = silu (x · W3a[:,j] + g · W3b[:,j] + b3_j),

  W3a and W3b the two row blocks of one 128-row matrix W3. A program that lays a, b, c side by side and multiplies the
  144-wide row by W1 computes the same h: a sum over 144 terms is the sum of its first 64, its next 64 and its last 16
  terms, which holds in any commutative additive monoid, so on the extended reals with no finiteness assumed. The same
  for 128 = 64 + 64.
-/
import Idealize.ShloMosaic.PureOps.Ideal
import Idealize.ShloMosaic.Lib.ValueIdx
import Idealize.ShloMosaic.Lib.IdealHost

noncomputable section

open scoped BigOperators

namespace Cert.Mp

open Idealize.ShloMosaic Idealize.ShloMosaic.ValueIdx

/-- silu v = v · σ(v) on the extended reals, σ the logistic function with its limits 0 at −∞ and 1 at +∞. -/
def silu (v : EReal) : EReal := v * Ideal.logistic v

/-- The same function written out as v · (1 / (1 + e^(−v))) with the number one given by its binary32 word. -/
theorem silu_spelt (v : EReal) :
    v * Ideal.div (Ideal.ofBits .f32 0x3F800000#32) (Ideal.ofBits .f32 0x3F800000#32 + Ideal.exp (-v)) = silu v := by
  rw [Ideal.ofBits_one_f32]; rfl

/-- The hidden layer of the edge network at one edge, entry k. -/
def hidden (a b : Fin 64 → EReal) (c : Fin 16 → EReal) (wa wb : Fin 64 → Fin 64 → EReal)
    (wc : Fin 16 → Fin 64 → EReal) (b1 : Fin 64 → EReal) (k : Fin 64) : EReal :=
  silu ((((∑ q, a q * wa q k) + (∑ q, b q * wb q k)) + (∑ q, c q * wc q k)) + b1 k)

/-- The message an edge sends, entry j. -/
def message (a b : Fin 64 → EReal) (c : Fin 16 → EReal) (wa wb : Fin 64 → Fin 64 → EReal)
    (wc : Fin 16 → Fin 64 → EReal) (b1 : Fin 64 → EReal) (w2 : Fin 64 → Fin 64 → EReal) (b2 : Fin 64 → EReal)
    (j : Fin 64) : EReal :=
  silu ((∑ k, hidden a b c wa wb wc b1 k * w2 k j) + b2 j)

/-- A node's new features, entry j, from its features x and the sum g of the messages sent to it. -/
def nodeOut (x g : Fin 64 → EReal) (w3a w3b : Fin 64 → Fin 64 → EReal) (b3 : Fin 64 → EReal) (j : Fin 64) : EReal :=
  silu (((∑ q, x q * w3a q j) + (∑ q, g q * w3b q j)) + b3 j)

/-- A sum of 144 terms is the sum of the first 64, the next 64 and the last 16. -/
theorem sum_144 {M : Type*} [AddCommMonoid M] (f : Fin 144 → M) :
    ∑ q : Fin 144, f q
      = ((∑ q : Fin 64, f ⟨q.val, by omega⟩) + (∑ q : Fin 64, f ⟨64 + q.val, by omega⟩))
          + ∑ q : Fin 16, f ⟨128 + q.val, by omega⟩ := by
  have e1 : ∑ q : Fin 144, f q = ∑ q : Fin (128 + 16), f q := rfl
  rw [e1, Fin.sum_univ_add]
  have e2 : ∑ q : Fin 128, f (Fin.castAdd 16 q) = ∑ q : Fin (64 + 64), f (Fin.castAdd 16 q) := rfl
  rw [e2, Fin.sum_univ_add]
  rfl

/-- A sum of 128 terms is the sum of the first 64 and the last 64. -/
theorem sum_128 {M : Type*} [AddCommMonoid M] (f : Fin 128 → M) :
    ∑ q : Fin 128, f q = (∑ q : Fin 64, f ⟨q.val, by omega⟩) + ∑ q : Fin 64, f ⟨64 + q.val, by omega⟩ := by
  have e1 : ∑ q : Fin 128, f q = ∑ q : Fin (64 + 64), f q := rfl
  rw [e1, Fin.sum_univ_add]
  rfl

/-- The row and the column of a matrix index, as numbers below the matrix's extents. -/
abbrev row {n0 n1 : Nat} (i : (⟨2, ![n0, n1]⟩ : Shape).Idx) : Fin n0 := ⟨(i 0).val, idx2_lt0 i⟩
abbrev col {n0 n1 : Nat} (i : (⟨2, ![n0, n1]⟩ : Shape).Idx) : Fin n1 := ⟨(i 1).val, idx2_lt1 i⟩

theorem row_ix2 {n0 n1 : Nat} (p : Fin n0) (q : Fin n1) : row (ix2 p q) = p := rfl
theorem col_ix2 {n0 n1 : Nat} (p : Fin n0) (q : Fin n1) : col (ix2 p q) = q := rfl

/-- The messages of R edges as a matrix, one row per edge: row e is the message of the edge whose source features
    are row e of gs, destination features row e of gd and attributes row e of ea; the biases are 1-by-64 rows. -/
def messages {R : Nat} (gs gd : (⟨2, ![R, 64]⟩ : Shape).Idx → EReal) (ea : (⟨2, ![R, 16]⟩ : Shape).Idx → EReal)
    (wa wb : (⟨2, ![64, 64]⟩ : Shape).Idx → EReal) (wc : (⟨2, ![16, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![R, 64]⟩ : Shape).Idx → EReal :=
  fun i => message (fun q => gs (ix2 (row i) q)) (fun q => gd (ix2 (row i) q)) (fun q => ea (ix2 (row i) q))
    (fun q k => wa (ix2 q k)) (fun q k => wb (ix2 q k)) (fun q k => wc (ix2 q k)) (fun k => b1 (ix2 (0 : Fin 1) k))
    (fun k j => w2 (ix2 k j)) (fun j => b2 (ix2 (0 : Fin 1) j)) (col i)

/-- The new features of R nodes as a matrix, one row per node, from the nodes' features x and aggregates g. -/
def nodes {R : Nat} (x g : (⟨2, ![R, 64]⟩ : Shape).Idx → EReal) (w3a w3b : (⟨2, ![64, 64]⟩ : Shape).Idx → EReal)
    (b3 : (⟨2, ![1, 64]⟩ : Shape).Idx → EReal) : (⟨2, ![R, 64]⟩ : Shape).Idx → EReal :=
  fun i => nodeOut (fun q => x (ix2 (row i) q)) (fun q => g (ix2 (row i) q)) (fun q k => w3a (ix2 q k))
    (fun q k => w3b (ix2 q k)) (fun j => b3 (ix2 (0 : Fin 1) j)) (col i)

end Cert.Mp

end
-- ==== Proof.EdgeBlock.lean ====
/-
  What the edge network's body stores, entry by entry. The body loads a block of 8000 edges — their source rows x0,
  destination rows x1 and attributes x2 — with the three row blocks x3, x4, x5 of the first weight matrix, the two bias
  rows x6, x8 and the second weight matrix x7, and stores one 8000-by-64 block. On the extended reals its entry (p, j)
  is the message of edge p: a change of number format is the identity, a product into a zero block is the plain sum
  over the contracted index, a bias row repeated down the rows reads the row, and the body's x · σ(x) is silu.
-/
import proofs.«130165_j43817256354334_1_alg».proof.Proof.Gen.KernelIdeal.Skeleton
import proofs.«130165_j43817256354334_1_alg».proof.Proof.LibRowReads
import proofs.«130165_j43817256354334_1_alg».proof.Proof.Spec
import Idealize.ShloMosaic.Lib.Pipeline.Value
import Idealize.ShloMosaic.Lib.ValueLayout

noncomputable section

open scoped BigOperators

namespace Cert.KernelIdeal.BlockValue

open Idealize.ShloMosaic Idealize.ShloMosaic.TcCoe Idealize.ShloMosaic.ValueIdx
open Cert.KernelIdeal Cert.KernelIdeal.Gen

/-- The logistic function of a vector, at an entry. -/
theorem logistic_at {s : Shape} {φ : FTy} (a : FVec Ideal s φ) (i : s.Idx) : logistic a i = Ideal.logistic (a i) := rfl

/-- An 8000-by-64 block times a 64-by-64 matrix into the zero block, at (p, k). -/
theorem mm64 {φ₁ φ₂ : FTy} (a : FVec Ideal S8000x64 φ₁) (b : FVec Ideal S64x64 φ₂) (p : Fin 8000) (k : Fin 64) :
    matmul dot_S8000x64_S64x64_S8000x64_1_0_0_1_n_n none a b (constant (F := Ideal) S8000x64 .f32 0x00000000#32) (ix2 p k)
      = ∑ q : Fin 64, a (ix2 p q) * b (ix2 q k) :=
  Cert.Lib.matmul_zero_at dot_S8000x64_S64x64_S8000x64_1_0_0_1_n_n rfl rfl rfl rfl rfl rfl none a b p k

/-- An 8000-by-16 block times a 16-by-64 matrix into the zero block, at (p, k). -/
theorem mm16 {φ₁ φ₂ : FTy} (a : FVec Ideal S8000x16 φ₁) (b : FVec Ideal S16x64 φ₂) (p : Fin 8000) (k : Fin 64) :
    matmul dot_S8000x16_S16x64_S8000x64_1_0_0_1_n_n none a b (constant (F := Ideal) S8000x64 .f32 0x00000000#32) (ix2 p k)
      = ∑ q : Fin 16, a (ix2 p q) * b (ix2 q k) :=
  Cert.Lib.matmul_zero_at dot_S8000x16_S16x64_S8000x64_1_0_0_1_n_n rfl rfl rfl rfl rfl rfl none a b p k

/-- A 1-by-64 row repeated down 8000 rows, at (p, k). -/
theorem bias_rows (v : (S1x64).Idx → EReal) (p : Fin 8000) (k : Fin 64) :
    broadcastTo S8000x64 v broadcasts_S1x64_S8000x64 (ix2 p k) = v (ix2 (0 : Fin 1) k) :=
  broadcastTo_1b_ab_apply v broadcasts_S1x64_S8000x64 p k

/-- THE STORED BLOCK at (p, j) is the message of the block's edge p. -/
theorem edge_payload_at (x0 x1 : Vec Ideal S8000x64 .f32) (x2 : Vec Ideal S8000x16 .f32) (x3 x4 : Vec Ideal S64x64 .f32)
    (x5 : Vec Ideal S16x64 .f32) (x6 : Vec Ideal S1x64 .f32) (x7 : Vec Ideal S64x64 .f32) (x8 : Vec Ideal S1x64 .f32)
    (p : Fin 8000) (j : Fin 64) :
    k0_pay1 (k0_pay2 x0 x1 x2 x3 x4 x5 x6 x7 x8) (k0_pay3 x0 x1 x2 x3 x4 x5 x6 x7 x8) (ix2 p j)
      = Cert.Mp.message (fun q => x0 (ix2 p q)) (fun q => x1 (ix2 p q)) (fun q => x2 (ix2 p q))
          (fun q k => x3 (ix2 q k)) (fun q k => x4 (ix2 q k)) (fun q k => x5 (ix2 q k)) (fun k => x6 (ix2 (0 : Fin 1) k))
          (fun k j => x7 (ix2 k j)) (fun j => x8 (ix2 (0 : Fin 1) j)) j := by
  unfold k0_pay1 k0_pay3 k0_pay2
  simp only [mulf_apply, addf_apply, logistic_at, truncf_apply, mm64, mm16, bias_rows, shapeCast_self]
  rfl

end Cert.KernelIdeal.BlockValue

end
-- ==== Proof.EdgeArray.lean ====
/-
  The messages matrix after the edge network's two hundred grid points. Point t works on edges 8000·t … 8000·t + 7999:
  its three edge-indexed windows and its output window all sit at block row t, block column 0, and the six parameter
  windows are each their whole array. So what point t writes back is rows 8000·t … of ONE matrix — the messages of all
  1 600 000 edges computed from the arrays as the region finds them — and, the two hundred blocks tiling the rows, the
  output array ends holding that matrix.
-/
import proofs.«130165_j43817256354334_1_alg».proof.Proof.Gen.KernelIdeal.Frame
import proofs.«130165_j43817256354334_1_alg».proof.Proof.EdgeBlock

set_option maxRecDepth 16384

noncomputable section

namespace Cert.KernelIdeal.EdgeArray

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelIdeal.BlockValue

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the edge-indexed windows (0, 1, 2) and the output (9) at block
    row t, every window at block column 0, the parameter windows (3–8) at block row 0. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- A stored block whose edge rows are rows of three whole matrices (row `row y` of the block being row `row i` of
    the matrices) and whose parameter loads are the parameter arrays is, at y, the whole messages matrix at i. -/
theorem block_entry (x0 x1 : Vec Ideal S8000x64 .f32) (x2 : Vec Ideal S8000x16 .f32) (x3 x4 : Vec Ideal S64x64 .f32)
    (x5 : Vec Ideal S16x64 .f32) (x6 : Vec Ideal S1x64 .f32) (x7 : Vec Ideal S64x64 .f32) (x8 : Vec Ideal S1x64 .f32)
    (gs gd : S1600000x64.Idx → EReal) (ea : S1600000x16.Idx → EReal) (wa wb : S64x64.Idx → EReal)
    (wc : S16x64.Idx → EReal) (b1 : S1x64.Idx → EReal) (w2 : S64x64.Idx → EReal) (b2 : S1x64.Idx → EReal)
    (y : S8000x64.Idx) (i : S1600000x64.Idx)
    (h0 : ∀ q : Fin 64, x0 (ix2 (Cert.Mp.row y) q) = gs (ix2 (Cert.Mp.row i) q))
    (h1 : ∀ q : Fin 64, x1 (ix2 (Cert.Mp.row y) q) = gd (ix2 (Cert.Mp.row i) q))
    (h2 : ∀ q : Fin 16, x2 (ix2 (Cert.Mp.row y) q) = ea (ix2 (Cert.Mp.row i) q))
    (h3 : x3 = wa) (h4 : x4 = wb) (h5 : x5 = wc) (h6 : x6 = b1) (h7 : x7 = w2) (h8 : x8 = b2)
    (hc : Cert.Mp.col y = Cert.Mp.col i) :
    k0_pay1 (k0_pay2 x0 x1 x2 x3 x4 x5 x6 x7 x8) (k0_pay3 x0 x1 x2 x3 x4 x5 x6 x7 x8) y
      = Cert.Mp.messages gs gd ea wa wb wc b1 w2 b2 i := by
  subst h3 h4 h5 h6 h7 h8
  have hy : y = ix2 (Cert.Mp.row y) (Cert.Mp.col y) := eq_ix2 y
  refine (congrArg (k0_pay1 (k0_pay2 x0 x1 x2 x3 x4 x5 x6 x7 x8) (k0_pay3 x0 x1 x2 x3 x4 x5 x6 x7 x8)) hy).trans ?_
  refine (edge_payload_at x0 x1 x2 x3 x4 x5 x6 x7 x8 (Cert.Mp.row y) (Cert.Mp.col y)).trans ?_
  unfold Cert.Mp.messages
  simp only [h0, h1, h2, hc]

/-- WHAT POINT t WRITES BACK is block t of the messages matrix of the arrays as the region finds them. -/
theorem flushed_edge (c : Dev nD) (t : Fin cfg0.N) :
    (dat0 V c).flushed 9 t = ((cfg0.win 9).blk t).view.read (Elt Ideal)
      (Cert.Mp.messages (V c main_v10) (V c main_v17) (V c main_arg2) (V c main_v18) (V c main_v19) (V c main_v20)
        (V c main_v21) (V c main_arg5) (V c main_v22)) := by
  show (cfg0.win 9).cut (grid0.coords t) ((dat0 V c).after 9 t) = _
  rw [after0_9]
  unfold out0_9
  rw [View.canon_unit_zero zero_off]
  simp only [View.ld_unit_zero (S := S8000x64) zero_off, View.ld_unit_zero (S := S8000x16) zero_off,
    View.ld_unit_zero (S := S64x64) zero_off, View.ld_unit_zero (S := S16x64) zero_off,
    View.ld_unit_zero (S := S1x64) zero_off]
  obtain ⟨e00, e01, e10, e11, e20, e21, e30, e31, e40, e41, e50, e51, e60, e61, e70, e71, e80, e81, e90, e91⟩ :=
    block_positions t
  refine funext fun (y : S8000x64.Idx) => ?_
  show k0_pay1 (k0_pay2 (iblk0 V c 0 t) (iblk0 V c 1 t) (iblk0 V c 2 t) (iblk0 V c 3 t) (iblk0 V c 4 t) (iblk0 V c 5 t)
        (iblk0 V c 6 t) (iblk0 V c 7 t) (iblk0 V c 8 t))
      (k0_pay3 (iblk0 V c 0 t) (iblk0 V c 1 t) (iblk0 V c 2 t) (iblk0 V c 3 t) (iblk0 V c 4 t) (iblk0 V c 5 t)
        (iblk0 V c 6 t) (iblk0 V c 7 t) (iblk0 V c 8 t)) y
    = Cert.Mp.messages (V c main_v10) (V c main_v17) (V c main_arg2) (V c main_v18) (V c main_v19) (V c main_v20)
        (V c main_v21) (V c main_arg5) (V c main_v22) (((cfg0.win 9).blk t).view.emb y)
  refine block_entry (iblk0 V c 0 t) (iblk0 V c 1 t) (iblk0 V c 2 t) (iblk0 V c 3 t) (iblk0 V c 4 t) (iblk0 V c 5 t)
    (iblk0 V c 6 t) (iblk0 V c 7 t) (iblk0 V c 8 t) (V c main_v10) (V c main_v17) (V c main_arg2) (V c main_v18)
    (V c main_v19) (V c main_v20) (V c main_v21) (V c main_arg5) (V c main_v22) y (((cfg0.win 9).blk t).view.emb y)
    ?_ ?_ ?_ ?_ ?_ ?_ ?_ ?_ ?_ ?_
  · intro q
    show V c main_v10 (((cfg0.win 0).blk t).view.emb (ix2 (Cert.Mp.row y) q)) = _
    refine congrArg (V c main_v10) ?_
    funext a; apply Fin.ext
    match a with
    | ⟨0, _⟩ =>
      show win0_0.index t (0 : Fin 2) * 8000 + 1 * (y 0).val = win0_9.index t (0 : Fin 2) * 8000 + 1 * (y 0).val
      rw [e00, e90]
    | ⟨1, _⟩ =>
      show win0_0.index t (1 : Fin 2) * 64 + 1 * q.val = q.val
      rw [e01]; omega
  · intro q
    show V c main_v17 (((cfg0.win 1).blk t).view.emb (ix2 (Cert.Mp.row y) q)) = _
    refine congrArg (V c main_v17) ?_
    funext a; apply Fin.ext
    match a with
    | ⟨0, _⟩ =>
      show win0_1.index t (0 : Fin 2) * 8000 + 1 * (y 0).val = win0_9.index t (0 : Fin 2) * 8000 + 1 * (y 0).val
      rw [e10, e90]
    | ⟨1, _⟩ =>
      show win0_1.index t (1 : Fin 2) * 64 + 1 * q.val = q.val
      rw [e11]; omega
  · intro q
    show V c main_arg2 (((cfg0.win 2).blk t).view.emb (ix2 (Cert.Mp.row y) q)) = _
    refine congrArg (V c main_arg2) ?_
    funext a; apply Fin.ext
    match a with
    | ⟨0, _⟩ =>
      show win0_2.index t (0 : Fin 2) * 8000 + 1 * (y 0).val = win0_9.index t (0 : Fin 2) * 8000 + 1 * (y 0).val
      rw [e20, e90]
    | ⟨1, _⟩ =>
      show win0_2.index t (1 : Fin 2) * 16 + 1 * q.val = q.val
      rw [e21]; omega
  · refine funext fun (z : S64x64.Idx) => ?_
    show V c main_v18 (((cfg0.win 3).blk t).view.emb z) = V c main_v18 z
    refine congrArg (V c main_v18) ?_
    funext a; apply Fin.ext
    match a with
    | ⟨0, _⟩ => show win0_3.index t (0 : Fin 2) * 64 + 1 * (z 0).val = (z 0).val; rw [e30]; omega
    | ⟨1, _⟩ => show win0_3.index t (1 : Fin 2) * 64 + 1 * (z 1).val = (z 1).val; rw [e31]; omega
  · refine funext fun (z : S64x64.Idx) => ?_
    show V c main_v19 (((cfg0.win 4).blk t).view.emb z) = V c main_v19 z
    refine congrArg (V c main_v19) ?_
    funext a; apply Fin.ext
    match a with
    | ⟨0, _⟩ => show win0_4.index t (0 : Fin 2) * 64 + 1 * (z 0).val = (z 0).val; rw [e40]; omega
    | ⟨1, _⟩ => show win0_4.index t (1 : Fin 2) * 64 + 1 * (z 1).val = (z 1).val; rw [e41]; omega
  · refine funext fun (z : S16x64.Idx) => ?_
    show V c main_v20 (((cfg0.win 5).blk t).view.emb z) = V c main_v20 z
    refine congrArg (V c main_v20) ?_
    funext a; apply Fin.ext
    match a with
    | ⟨0, _⟩ => show win0_5.index t (0 : Fin 2) * 16 + 1 * (z 0).val = (z 0).val; rw [e50]; omega
    | ⟨1, _⟩ => show win0_5.index t (1 : Fin 2) * 64 + 1 * (z 1).val = (z 1).val; rw [e51]; omega
  · refine funext fun (z : S1x64.Idx) => ?_
    show V c main_v21 (((cfg0.win 6).blk t).view.emb z) = V c main_v21 z
    refine congrArg (V c main_v21) ?_
    funext a; apply Fin.ext
    match a with
    | ⟨0, _⟩ => show win0_6.index t (0 : Fin 2) * 1 + 1 * (z 0).val = (z 0).val; rw [e60]; omega
    | ⟨1, _⟩ => show win0_6.index t (1 : Fin 2) * 64 + 1 * (z 1).val = (z 1).val; rw [e61]; omega
  · refine funext fun (z : S64x64.Idx) => ?_
    show V c main_arg5 (((cfg0.win 7).blk t).view.emb z) = V c main_arg5 z
    refine congrArg (V c main_arg5) ?_
    funext a; apply Fin.ext
    match a with
    | ⟨0, _⟩ => show win0_7.index t (0 : Fin 2) * 64 + 1 * (z 0).val = (z 0).val; rw [e70]; omega
    | ⟨1, _⟩ => show win0_7.index t (1 : Fin 2) * 64 + 1 * (z 1).val = (z 1).val; rw [e71]; omega
  · refine funext fun (z : S1x64.Idx) => ?_
    show V c main_v22 (((cfg0.win 8).blk t).view.emb z) = V c main_v22 z
    refine congrArg (V c main_v22) ?_
    funext a; apply Fin.ext
    match a with
    | ⟨0, _⟩ => show win0_8.index t (0 : Fin 2) * 1 + 1 * (z 0).val = (z 0).val; rw [e80]; omega
    | ⟨1, _⟩ => show win0_8.index t (1 : Fin 2) * 64 + 1 * (z 1).val = (z 1).val; rw [e81]; omega
  · apply Fin.ext
    show (y 1).val = win0_9.index t (1 : Fin 2) * 64 + 1 * (y 1).val
    rw [e91]; omega

/-- An edge row is in point t's block iff it lies in the block's range on each axis. -/
theorem mem_block (t : Fin cfg0.N) (i : S1600000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v23).slice (win0_9.rect t)).set ↔ _
  rw [View.set_slice_whole, Rect.mem_set_unit]
  exact Iff.rfl

/-- Every entry of the messages matrix is in the block of the point its row divided by 8000 names. -/
theorem covered (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have hN : grid0.N = 200 := N_0
  have ht : (i 0).val / 8000 < cfg0.N := by show (i 0).val / 8000 < grid0.N; rw [hN]; omega
  obtain ⟨_, _, _, _, _, _, _, _, _, _, _, _, _, _, _, _, _, _, e90, e91⟩ := block_positions ⟨(i 0).val / 8000, ht⟩
  have e90' : win0_9.index ⟨(i 0).val / 8000, ht⟩ (0 : Fin 2) = (i 0).val / 8000 := e90
  refine ⟨⟨(i 0).val / 8000, ht⟩, flush0_9 _, ?_⟩
  rw [mem_block]
  intro a
  match a with
  | ⟨0, _⟩ =>
    show win0_9.index ⟨(i 0).val / 8000, ht⟩ (0 : Fin 2) * 8000 ≤ (i 0).val
      ∧ (i 0).val < win0_9.index ⟨(i 0).val / 8000, ht⟩ (0 : Fin 2) * 8000 + 8000
    rw [e90']; omega
  | ⟨1, _⟩ =>
    show win0_9.index ⟨(i 0).val / 8000, ht⟩ (1 : Fin 2) * 64 ≤ (i 1).val
      ∧ (i 1).val < win0_9.index ⟨(i 0).val / 8000, ht⟩ (1 : Fin 2) * 64 + 64
    rw [e91]; omega

/-- THE MESSAGES ARRAY after the region: the messages of all the edges, from the arrays as the region finds them. -/
theorem final_edge (c : Dev nD) :
    (dat0 V c).arrAt 9 cfg0.N
      = Cert.Mp.messages (V c main_v10) (V c main_v17) (V c main_arg2) (V c main_v18) (V c main_v19) (V c main_v20)
          (V c main_v21) (V c main_arg5) (V c main_v22) :=
  (dat0 V c).arrAt_eq_of_cover 9 _ (fun t _ => flushed_edge V c t) covered

end Cert.KernelIdeal.EdgeArray

end
-- ==== Proof.NodeBlock.lean ====
/-
  What the node network's body stores, entry by entry. The body loads a block of 5000 nodes — their features x0 and
  the messages summed onto them x1 — with the two row blocks x2, x3 of the last weight matrix and its bias row x4, and
  stores one 5000-by-64 block whose entry (p, j), on the extended reals, is node p's new feature j.
-/
import proofs.«130165_j43817256354334_1_alg».proof.Proof.Gen.KernelIdeal.Skeleton
import proofs.«130165_j43817256354334_1_alg».proof.Proof.LibRowReads
import proofs.«130165_j43817256354334_1_alg».proof.Proof.Spec
import Idealize.ShloMosaic.Lib.Pipeline.Value
import Idealize.ShloMosaic.Lib.ValueLayout

noncomputable section

open scoped BigOperators

namespace Cert.KernelIdeal.NodeValue

open Idealize.ShloMosaic Idealize.ShloMosaic.TcCoe Idealize.ShloMosaic.ValueIdx
open Cert.KernelIdeal Cert.KernelIdeal.Gen

/-- The logistic function of a vector, at an entry. -/
theorem logistic_at {s : Shape} {φ : FTy} (a : FVec Ideal s φ) (i : s.Idx) : logistic a i = Ideal.logistic (a i) := rfl

/-- A 5000-by-64 block times a 64-by-64 matrix into the zero block, at (p, k). -/
theorem mm64 {φ₁ φ₂ : FTy} (a : FVec Ideal S5000x64 φ₁) (b : FVec Ideal S64x64 φ₂) (p : Fin 5000) (k : Fin 64) :
    matmul dot_S5000x64_S64x64_S5000x64_1_0_0_1_n_n none a b (constant (F := Ideal) S5000x64 .f32 0x00000000#32) (ix2 p k)
      = ∑ q : Fin 64, a (ix2 p q) * b (ix2 q k) :=
  Cert.Lib.matmul_zero_at dot_S5000x64_S64x64_S5000x64_1_0_0_1_n_n rfl rfl rfl rfl rfl rfl none a b p k

/-- A 1-by-64 row repeated down 5000 rows, at (p, k). -/
theorem bias_rows (v : (S1x64).Idx → EReal) (p : Fin 5000) (k : Fin 64) :
    broadcastTo S5000x64 v broadcasts_S1x64_S5000x64 (ix2 p k) = v (ix2 (0 : Fin 1) k) :=
  broadcastTo_1b_ab_apply v broadcasts_S1x64_S5000x64 p k

/-- THE STORED BLOCK at (p, j) is the new feature j of the block's node p. -/
theorem node_payload_at (x0 x1 : Vec Ideal S5000x64 .f32) (x2 x3 : Vec Ideal S64x64 .f32) (x4 : Vec Ideal S1x64 .f32)
    (p : Fin 5000) (j : Fin 64) :
    k1_pay1 x0 x1 x2 x3 x4 (ix2 p j)
      = Cert.Mp.nodeOut (fun q => x0 (ix2 p q)) (fun q => x1 (ix2 p q)) (fun q k => x2 (ix2 q k))
          (fun q k => x3 (ix2 q k)) (fun j => x4 (ix2 (0 : Fin 1) j)) j := by
  unfold k1_pay1
  simp only [mulf_apply, addf_apply, logistic_at, truncf_apply, mm64, bias_rows, shapeCast_self]
  rfl

end Cert.KernelIdeal.NodeValue

end
-- ==== Proof.NodeArray.lean ====
/-
  The result matrix after the node network's twenty grid points. Point t works on nodes 5000·t … 5000·t + 4999: its
  two node-indexed windows and its output window sit at block row t, block column 0, and the three parameter windows
  are each their whole array. So what point t writes back is rows 5000·t … of ONE matrix — the new features of all
  100 000 nodes computed from the arrays as the region finds them — and, the twenty blocks tiling the rows, the output
  array ends holding that matrix.
-/
import proofs.«130165_j43817256354334_1_alg».proof.Proof.Gen.KernelIdeal.Frame
import proofs.«130165_j43817256354334_1_alg».proof.Proof.NodeBlock

set_option maxRecDepth 16384

noncomputable section

namespace Cert.KernelIdeal.NodeArray

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelIdeal.NodeValue

variable (V : (c : Dev nD) → (b : Ref sig .tc) → Buf (Elt Ideal) ((c : Thread nD τ).loc b))

theorem zero_off : (![0, 0] : Fin 2 → Nat) = fun _ => 0 := funext fun a => by fin_cases a <;> rfl

/-- Where each window's block sits at grid point t: the node-indexed windows (0, 1) and the output (5) at block row
    t, every window at block column 0, the parameter windows (2–4) at block row 0. -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A stored block whose node rows are rows of two whole matrices and whose parameter loads are the parameter arrays
    is, at y, the whole result matrix at i. -/
theorem block_entry (x0 x1 : Vec Ideal S5000x64 .f32) (x2 x3 : Vec Ideal S64x64 .f32) (x4 : Vec Ideal S1x64 .f32)
    (xs g : S100000x64.Idx → EReal) (w3a w3b : S64x64.Idx → EReal) (b3 : S1x64.Idx → EReal)
    (y : S5000x64.Idx) (i : S100000x64.Idx)
    (h0 : ∀ q : Fin 64, x0 (ix2 (Cert.Mp.row y) q) = xs (ix2 (Cert.Mp.row i) q))
    (h1 : ∀ q : Fin 64, x1 (ix2 (Cert.Mp.row y) q) = g (ix2 (Cert.Mp.row i) q))
    (h2 : x2 = w3a) (h3 : x3 = w3b) (h4 : x4 = b3)
    (hc : Cert.Mp.col y = Cert.Mp.col i) :
    k1_pay1 x0 x1 x2 x3 x4 y = Cert.Mp.nodes xs g w3a w3b b3 i := by
  subst h2 h3 h4
  have hy : y = ix2 (Cert.Mp.row y) (Cert.Mp.col y) := eq_ix2 y
  refine (congrArg (k1_pay1 x0 x1 x2 x3 x4) hy).trans ?_
  refine (node_payload_at x0 x1 x2 x3 x4 (Cert.Mp.row y) (Cert.Mp.col y)).trans ?_
  unfold Cert.Mp.nodes
  simp only [h0, h1, hc]

/-- WHAT POINT t WRITES BACK is block t of the result matrix of the arrays as the region finds them. -/
theorem flushed_node (c : Dev nD) (t : Fin cfg1.N) :
    (dat1 V c).flushed 5 t = ((cfg1.win 5).blk t).view.read (Elt Ideal)
      (Cert.Mp.nodes (V c main_arg0) (V c main_v26) (V c main_v27) (V c main_v28) (V c main_v29)) := by
  show (cfg1.win 5).cut (grid1.coords t) ((dat1 V c).after 5 t) = _
  rw [after1_5]
  unfold out1_5
  rw [View.canon_unit_zero zero_off]
  simp only [View.ld_unit_zero (S := S5000x64) zero_off, View.ld_unit_zero (S := S64x64) zero_off,
    View.ld_unit_zero (S := S1x64) zero_off]
  obtain ⟨e00, e01, e10, e11, e20, e21, e30, e31, e40, e41, e50, e51⟩ := block_positions t
  refine funext fun (y : S5000x64.Idx) => ?_
  show k1_pay1 (iblk1 V c 0 t) (iblk1 V c 1 t) (iblk1 V c 2 t) (iblk1 V c 3 t) (iblk1 V c 4 t) y
    = Cert.Mp.nodes (V c main_arg0) (V c main_v26) (V c main_v27) (V c main_v28) (V c main_v29)
        (((cfg1.win 5).blk t).view.emb y)
  refine block_entry (iblk1 V c 0 t) (iblk1 V c 1 t) (iblk1 V c 2 t) (iblk1 V c 3 t) (iblk1 V c 4 t)
    (V c main_arg0) (V c main_v26) (V c main_v27) (V c main_v28) (V c main_v29) y (((cfg1.win 5).blk t).view.emb y)
    ?_ ?_ ?_ ?_ ?_ ?_
  · intro q
    show V c main_arg0 (((cfg1.win 0).blk t).view.emb (ix2 (Cert.Mp.row y) q)) = _
    refine congrArg (V c main_arg0) ?_
    funext a; apply Fin.ext
    match a with
    | ⟨0, _⟩ =>
      show win1_0.index t (0 : Fin 2) * 5000 + 1 * (y 0).val = win1_5.index t (0 : Fin 2) * 5000 + 1 * (y 0).val
      rw [e00, e50]
    | ⟨1, _⟩ =>
      show win1_0.index t (1 : Fin 2) * 64 + 1 * q.val = q.val
      rw [e01]; omega
  · intro q
    show V c main_v26 (((cfg1.win 1).blk t).view.emb (ix2 (Cert.Mp.row y) q)) = _
    refine congrArg (V c main_v26) ?_
    funext a; apply Fin.ext
    match a with
    | ⟨0, _⟩ =>
      show win1_1.index t (0 : Fin 2) * 5000 + 1 * (y 0).val = win1_5.index t (0 : Fin 2) * 5000 + 1 * (y 0).val
      rw [e10, e50]
    | ⟨1, _⟩ =>
      show win1_1.index t (1 : Fin 2) * 64 + 1 * q.val = q.val
      rw [e11]; omega
  · refine funext fun (z : S64x64.Idx) => ?_
    show V c main_v27 (((cfg1.win 2).blk t).view.emb z) = V c main_v27 z
    refine congrArg (V c main_v27) ?_
    funext a; apply Fin.ext
    match a with
    | ⟨0, _⟩ => show win1_2.index t (0 : Fin 2) * 64 + 1 * (z 0).val = (z 0).val; rw [e20]; omega
    | ⟨1, _⟩ => show win1_2.index t (1 : Fin 2) * 64 + 1 * (z 1).val = (z 1).val; rw [e21]; omega
  · refine funext fun (z : S64x64.Idx) => ?_
    show V c main_v28 (((cfg1.win 3).blk t).view.emb z) = V c main_v28 z
    refine congrArg (V c main_v28) ?_
    funext a; apply Fin.ext
    match a with
    | ⟨0, _⟩ => show win1_3.index t (0 : Fin 2) * 64 + 1 * (z 0).val = (z 0).val; rw [e30]; omega
    | ⟨1, _⟩ => show win1_3.index t (1 : Fin 2) * 64 + 1 * (z 1).val = (z 1).val; rw [e31]; omega
  · refine funext fun (z : S1x64.Idx) => ?_
    show V c main_v29 (((cfg1.win 4).blk t).view.emb z) = V c main_v29 z
    refine congrArg (V c main_v29) ?_
    funext a; apply Fin.ext
    match a with
    | ⟨0, _⟩ => show win1_4.index t (0 : Fin 2) * 1 + 1 * (z 0).val = (z 0).val; rw [e40]; omega
    | ⟨1, _⟩ => show win1_4.index t (1 : Fin 2) * 64 + 1 * (z 1).val = (z 1).val; rw [e41]; omega
  · apply Fin.ext
    show (y 1).val = win1_5.index t (1 : Fin 2) * 64 + 1 * (y 1).val
    rw [e51]; omega

/-- A node row is in point t's block iff it lies in the block's range on each axis. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v30).slice (win1_5.rect t)).set ↔ _
  rw [View.set_slice_whole, Rect.mem_set_unit]
  exact Iff.rfl

/-- Every entry of the result matrix is in the block of the point its row divided by 5000 names. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; rw [hN]; omega
  obtain ⟨_, _, _, _, _, _, _, _, _, _, e50, e51⟩ := block_positions ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50']; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e51]; omega

/-- THE RESULT ARRAY after the region: the new features of all the nodes, from the arrays as the region finds them. -/
theorem final_node (c : Dev nD) :
    (dat1 V c).arrAt 5 cfg1.N
      = Cert.Mp.nodes (V c main_arg0) (V c main_v26) (V c main_v27) (V c main_v28) (V c main_v29) :=
  (dat1 V c).arrAt_eq_of_cover 5 _ (fun t _ => flushed_node V c t) covered

end Cert.KernelIdeal.NodeArray

end
-- ==== Proof.HostRead.lean ====
/-
  What the two stretches of host operations hand the two regions. Before the edge network: the source and destination
  rows of the node table gathered along the two rows of the edge table (an endpoint below zero wrapped by the number of
  nodes, as jnp indexing does), the three row blocks of the first weight matrix, the two biases as rows; the edge
  attributes and the second weight matrix are arguments. Before the node network: the messages summed onto their
  destination nodes (a scatter-add into a zero matrix), the two row blocks of the last weight matrix, its bias as a
  row; the node table is an argument. Each buffer a region reads is named here as a term of the launch memory — the
  messages buffer excepted, which the edge network wrote.
-/
import proofs.«130165_j43817256354334_1_alg».proof.Proof.Gen.KernelIdeal.Frame
import Idealize.ShloMosaic.PureOps.Ideal

set_option maxRecDepth 16384

noncomputable section

namespace Cert.KernelIdeal.HostRead

open Idealize.ShloMosaic Idealize.ShloMosaic.TcCoe Idealize.ShloMosaic.Tactic
open Idealize.SL Idealize.SL.Sem
open Idealize.ShloMosaic.StableHlo
open Cert.KernelIdeal Cert.KernelIdeal.Gen

/-- Row 0 of the 2-by-E edge table as a vector: the E source endpoints. -/
def endpoints0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
/-- Row 1 of the edge table as a vector: the E destination endpoints. -/
def endpoints1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- A vector of endpoints as an E-by-1 column of row numbers: a negative endpoint has the number of nodes added. -/
def wrapped (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The rows of the node table at a vector of endpoints. -/
def gathered (x : (⟨S100000x64, .f32⟩ : BufTy).Contents (Elt Ideal)) (v : (⟨S1600000, .i32⟩ : BufTy).Contents (Elt Ideal)) :
    (⟨S1600000x64, .f32⟩ : BufTy).Contents (Elt Ideal) :=
  Host.gather gather_S100000x64_S1600000x1_S1600000x64_1_0_n_n_0_1_164 x (wrapped v)

/-- The messages summed onto their destination nodes. -/
def aggregated (dst : (⟨S1600000, .i32⟩ : BufTy).Contents (Elt Ideal)) (msgs : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msgs

variable (m : (ℓ : Loc nD τ sig) → Buf (Elt Ideal) ℓ) (ρ : Dev nD → PrngReg) (c : Dev nD)

/-! ## What the edge network finds -/

theorem edge_src : V1 m ρ c main_v10
    = gathered (m ((c : Thread nD τ).loc main_arg0)) (endpoints0 (m ((c : Thread nD τ).loc main_arg1))) := by
  show StableHlo.after hostOps0 (W0 m ρ c) (Proc.devRef .tc main_v10) = _
  after_results; rfl

theorem edge_dst : V1 m ρ c main_v17
    = gathered (m ((c : Thread nD τ).loc main_arg0)) (endpoints1 (m ((c : Thread nD τ).loc main_arg1))) := by
  show StableHlo.after hostOps0 (W0 m ρ c) (Proc.devRef .tc main_v17) = _
  after_results; rfl

theorem edge_attr : V1 m ρ c main_arg2 = m ((c : Thread nD τ).loc main_arg2) := by
  show StableHlo.after hostOps0 (W0 m ρ c) (Proc.devRef .tc main_arg2) = _
  after_results

theorem edge_w1a : V1 m ρ c main_v18
    = extractStridedSlice S64x64 ![0, 0] (m ((c : Thread nD τ).loc main_arg3)) slices_S144x64_S64x64_0_0 := by
  show StableHlo.after hostOps0 (W0 m ρ c) (Proc.devRef .tc main_v18) = _
  after_results

theorem edge_w1b : V1 m ρ c main_v19
    = extractStridedSlice S64x64 ![64, 0] (m ((c : Thread nD τ).loc main_arg3)) slices_S144x64_S64x64_64_0 := by
  show StableHlo.after hostOps0 (W0 m ρ c) (Proc.devRef .tc main_v19) = _
  after_results

theorem edge_w1c : V1 m ρ c main_v20
    = extractStridedSlice S16x64 ![128, 0] (m ((c : Thread nD τ).loc main_arg3)) slices_S144x64_S16x64_128_0 := by
  show StableHlo.after hostOps0 (W0 m ρ c) (Proc.devRef .tc main_v20) = _
  after_results

theorem edge_b1 : V1 m ρ c main_v21
    = broadcastInDim S1x64 ![1] bcast_S64_S1x64_1 (m ((c : Thread nD τ).loc main_arg4)) := by
  show StableHlo.after hostOps0 (W0 m ρ c) (Proc.devRef .tc main_v21) = _
  after_results

theorem edge_w2 : V1 m ρ c main_arg5 = m ((c : Thread nD τ).loc main_arg5) := by
  show StableHlo.after hostOps0 (W0 m ρ c) (Proc.devRef .tc main_arg5) = _
  after_results

theorem edge_b2 : V1 m ρ c main_v22
    = broadcastInDim S1x64 ![1] bcast_S64_S1x64_1 (m ((c : Thread nD τ).loc main_arg6)) := by
  show StableHlo.after hostOps0 (W0 m ρ c) (Proc.devRef .tc main_v22) = _
  after_results

/-! ## What the node network finds -/

/-- A buffer the edge network does not write and the first stretch does not write is, after both, as launched. -/
theorem kept_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results

theorem kept_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

theorem kept_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

/-- The destination endpoints, computed by the first stretch, are still there after the edge network. -/
theorem kept_dst : W2 m ρ c (Proc.devRef .tc main_v3) = endpoints1 (m ((c : Thread nD τ).loc main_arg1)) := by
  rw [W2_of_ne m ρ c main_v3 (by decide)]
  show StableHlo.after hostOps0 (W0 m ρ c) (Proc.devRef .tc main_v3) = _
  after_results; rfl

theorem node_x : V3 m ρ c main_arg0 = m ((c : Thread nD τ).loc main_arg0) := by
  show StableHlo.after hostOps1 (W2 m ρ c) (Proc.devRef .tc main_arg0) = _
  after_results
  exact kept_arg0 m ρ c

theorem node_agg : V3 m ρ c main_v26
    = aggregated (endpoints1 (m ((c : Thread nD τ).loc main_arg1))) (W2 m ρ c (Proc.devRef .tc main_v23)) := by
  show StableHlo.after hostOps1 (W2 m ρ c) (Proc.devRef .tc main_v26) = _
  after_results
  rw [kept_dst m ρ c]
  rfl

theorem node_w3a : V3 m ρ c main_v27
    = extractStridedSlice S64x64 ![0, 0] (m ((c : Thread nD τ).loc main_arg7)) slices_S128x64_S64x64_0_0 := by
  show StableHlo.after hostOps1 (W2 m ρ c) (Proc.devRef .tc main_v27) = _
  after_results
  rw [kept_arg7 m ρ c]

theorem node_w3b : V3 m ρ c main_v28
    = extractStridedSlice S64x64 ![64, 0] (m ((c : Thread nD τ).loc main_arg7)) slices_S128x64_S64x64_64_0 := by
  show StableHlo.after hostOps1 (W2 m ρ c) (Proc.devRef .tc main_v28) = _
  after_results
  rw [kept_arg7 m ρ c]

theorem node_b3 : V3 m ρ c main_v29
    = broadcastInDim S1x64 ![1] bcast_S64_S1x64_1 (m ((c : Thread nD τ).loc main_arg8)) := by
  show StableHlo.after hostOps1 (W2 m ρ c) (Proc.devRef .tc main_v29) = _
  after_results
  rw [kept_arg8 m ρ c]

end Cert.KernelIdeal.HostRead

end
-- ==== Proof.KernelValue.lean ====
/-
  The idealized kernel's result as one function of its nine arguments. Reading the run from its end: the result buffer
  is the node network's output window, which holds the node layer of what that region finds — the node table, the
  messages summed onto their destinations, the two row blocks of the last weight matrix and its bias row —; the
  summed messages are the scatter-add of the messages buffer, which is the edge network's output window and holds
  the messages of what that region finds — the gathered source and destination rows, the edge attributes, the three
  row blocks of the first weight matrix, the second weight matrix and the two bias rows.
-/
import proofs.«130165_j43817256354334_1_alg».proof.Proof.KernelRun
import proofs.«130165_j43817256354334_1_alg».proof.Proof.EdgeArray
import proofs.«130165_j43817256354334_1_alg».proof.Proof.NodeArray
import proofs.«130165_j43817256354334_1_alg».proof.Proof.HostRead

set_option maxRecDepth 16384

noncomputable section

namespace Cert.KernelIdeal.KernelValue

open Idealize.ShloMosaic Idealize.ShloMosaic.TcCoe
open Idealize.SL Idealize.SL.Sem
open Cert.KernelIdeal Cert.KernelIdeal.Gen Cert.KernelIdeal.HostRead

/-- The layer as the kernel computes it, from the node table a0, the edge table a1, the edge attributes a2 and the
    three weight matrices a3, a5, a7 with their biases a4, a6, a8. -/
def layer (a0 : (⟨S100000x64, .f32⟩ : BufTy).Contents (Elt Ideal)) (a1 : (⟨S2x1600000, .i32⟩ : BufTy).Contents (Elt Ideal))
    (a2 : (⟨S1600000x16, .f32⟩ : BufTy).Contents (Elt Ideal)) (a3 : (⟨S144x64, .f32⟩ : BufTy).Contents (Elt Ideal))
    (a4 : (⟨S64, .f32⟩ : BufTy).Contents (Elt Ideal)) (a5 : (⟨S64x64, .f32⟩ : BufTy).Contents (Elt Ideal))
    (a6 : (⟨S64, .f32⟩ : BufTy).Contents (Elt Ideal)) (a7 : (⟨S128x64, .f32⟩ : BufTy).Contents (Elt Ideal))
    (a8 : (⟨S64, .f32⟩ : BufTy).Contents (Elt Ideal)) : (⟨S100000x64, .f32⟩ : BufTy).Contents (Elt Ideal) :=
  Cert.Mp.nodes a0
    (aggregated (endpoints1 a1)
      (Cert.Mp.messages (gathered a0 (endpoints0 a1)) (gathered a0 (endpoints1 a1)) a2
        (extractStridedSlice S64x64 ![0, 0] a3 slices_S144x64_S64x64_0_0)
        (extractStridedSlice S64x64 ![64, 0] a3 slices_S144x64_S64x64_64_0)
        (extractStridedSlice S16x64 ![128, 0] a3 slices_S144x64_S16x64_128_0)
        (broadcastInDim S1x64 ![1] bcast_S64_S1x64_1 a4) a5 (broadcastInDim S1x64 ![1] bcast_S64_S1x64_1 a6)))
    (extractStridedSlice S64x64 ![0, 0] a7 slices_S128x64_S64x64_0_0)
    (extractStridedSlice S64x64 ![64, 0] a7 slices_S128x64_S64x64_64_0)
    (broadcastInDim S1x64 ![1] bcast_S64_S1x64_1 a8)

variable (m : (ℓ : Loc nD τ sig) → Buf (Elt Ideal) ℓ) (ρ : Dev nD → PrngReg)

/-- The last boundary's contents at the result buffer are the layer of the launch memory's arguments. -/
theorem result_eq (c : Dev nD) :
    W4 m ρ c (Proc.devRef .tc main_v30)
      = layer (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  rw [Cert.KernelIdeal.RunValue.result_is_window, Cert.KernelIdeal.NodeArray.final_node (V3 m ρ) c,
    node_x, node_agg, node_w3a, node_w3b, node_b3,
    Cert.KernelIdeal.RunValue.messages_is_window, Cert.KernelIdeal.EdgeArray.final_edge (V1 m ρ) c,
    edge_src, edge_dst, edge_attr, edge_w1a, edge_w1b, edge_w1c, edge_b1, edge_w2, edge_b2]
  rfl

/-- THE KERNEL'S RUN: every weakly fair execution ends, nothing faulting, the result buffer holding the layer of the
    arguments and the arguments as launched. -/
theorem run : θ_run defs (onTc (τ := τ) (main (F := Ideal))) ⟨m, fun _ => 0, ρ⟩ (fun r => ∀ c : Dev nD,
      r.2.mem ((c.tc : Thread nD τ).loc main_v30)
        = layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩)
    (Cert.KernelIdeal.RunValue.run_result (F := Ideal) m ρ)

end Cert.KernelIdeal.KernelValue

end
-- ==== Proof.LibColsRead.lean ====
/-
  Two layout readings for matrices, at an entry: two matrices with the same rows laid side by side (a concatenation
  along the columns) read in the left part and in the right part, and a rectangular block cut out of a matrix at a
  row and column offset.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- Two matrices of R rows, A and B columns wide, laid side by side: at (r, k) with k < A, the left one at (r, k). -/
theorem concatenate_cols_left {R A B C : Nat} (a : (⟨2, ![R, A]⟩ : Shape).Idx → α) (b : (⟨2, ![R, B]⟩ : Shape).Idx → α)
    (h : Shape.Concatenates [(⟨2, ![R, A]⟩ : Shape), ⟨2, ![R, B]⟩] ⟨2, ![R, C]⟩ 1) (r : Fin R) (k : Fin A) (kk : Fin C)
    (hk : kk.val = k.val) :
    concatenate ⟨2, ![R, C]⟩ 1 [⟨⟨2, ![R, A]⟩, a⟩, ⟨⟨2, ![R, B]⟩, b⟩] h (ix2 r kk) = a (ix2 r k) :=
  concatenate_pair_apply_left (1 : Fin 2) a b h (ix2 r kk) rfl (ix2 r k) (fun d => match d with
    | ⟨0, _⟩ => rfl
    | ⟨1, _⟩ => hk.symm)

/-- … and at (r, A + k) with k < B, the right one at (r, k). -/
theorem concatenate_cols_right {R A B C : Nat} (a : (⟨2, ![R, A]⟩ : Shape).Idx → α) (b : (⟨2, ![R, B]⟩ : Shape).Idx → α)
    (h : Shape.Concatenates [(⟨2, ![R, A]⟩ : Shape), ⟨2, ![R, B]⟩] ⟨2, ![R, C]⟩ 1) (r : Fin R) (k : Fin B) (kk : Fin C)
    (hk : kk.val = A + k.val) :
    concatenate ⟨2, ![R, C]⟩ 1 [⟨⟨2, ![R, A]⟩, a⟩, ⟨⟨2, ![R, B]⟩, b⟩] h (ix2 r kk) = b (ix2 r k) :=
  concatenate_pair_apply_right (1 : Fin 2) a b h (ix2 r kk) rfl rfl (ix2 r k) (fun d => match d with
    | ⟨0, _⟩ => fun _ => rfl
    | ⟨1, _⟩ => fun hd => absurd rfl hd)
    (show k.val + A = kk.val by omega)

/-- A block of a' rows and b' columns cut out of a matrix at row offset off 0 and column offset off 1: at (p, q), the
    matrix at (off 0 + p, off 1 + q). -/
theorem slice_block_apply {a b a' b' : Nat} (off : Fin 2 → Nat) (X : (⟨2, ![a, b]⟩ : Shape).Idx → α)
    (hs : (⟨2, ![a, b]⟩ : Shape).Slices off ⟨2, ![a', b']⟩) (p : Fin a') (q : Fin b') (pp : Fin a) (qq : Fin b)
    (hp : pp.val = off 0 + p.val) (hq : qq.val = off 1 + q.val) :
    extractStridedSlice ⟨2, ![a', b']⟩ off X hs (ix2 p q) = X (ix2 pp qq) :=
  extractStridedSlice_apply off X hs (ix2 p q) (ix2 pp qq) (fun d => match d with
    | ⟨0, _⟩ => hp
    | ⟨1, _⟩ => hq)

end Cert.Lib

end
-- ==== Proof.LibThreeCols.lean ====
/-
  THREE MATRICES SIDE BY SIDE, AND A ROW BLOCK OF A MATRIX, READ AT AN ENTRY.

  Three matrices with the same R rows and A, B and C columns, concatenated along the columns into one R-by-T matrix:
  column k < A is the first one's column k, column A + k (k < B) the second one's column k, column A + B + k (k < C)
  the third one's column k. And rows off, …, off + a' − 1 of an n-by-b matrix cut out as an a'-by-b block: entry (q, k)
  is the matrix's entry (off + q, k). Generic in every size.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- Column kk = k < A of the three laid side by side is the first matrix's column k. -/
theorem concatenate_cols3_first {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin A) (kk : Fin T) (hk : kk.val = k.val) :
    concatenate ⟨2, ![R, T]⟩ 1 [⟨⟨2, ![R, A]⟩, a⟩, ⟨⟨2, ![R, B]⟩, b⟩, ⟨⟨2, ![R, C]⟩, c⟩] h (ix2 r kk) = a (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    0 (by show (0 : Nat) < 3; omega) ⟨2, ![R, A]⟩ a rfl rfl 0 rfl (ix2 r k)
    (fun d => match d with
      | ⟨0, _⟩ => fun _ => rfl
      | ⟨1, _⟩ => fun hd => absurd rfl hd)
    (show 0 + k.val = kk.val by omega)

/-- Column kk = A + k, k < B, is the second matrix's column k. -/
theorem concatenate_cols3_second {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin B) (kk : Fin T) (hk : kk.val = A + k.val) :
    concatenate ⟨2, ![R, T]⟩ 1 [⟨⟨2, ![R, A]⟩, a⟩, ⟨⟨2, ![R, B]⟩, b⟩, ⟨⟨2, ![R, C]⟩, c⟩] h (ix2 r kk) = b (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    1 (by show (1 : Nat) < 3; omega) ⟨2, ![R, B]⟩ b rfl rfl A rfl (ix2 r k)
    (fun d => match d with
      | ⟨0, _⟩ => fun _ => rfl
      | ⟨1, _⟩ => fun hd => absurd rfl hd)
    (show A + k.val = kk.val by omega)

/-- Column kk = A + B + k, k < C, is the third matrix's column k. -/
theorem concatenate_cols3_third {R A B C T : Nat} (a : (⟨2, ![R, A]⟩ : Shape).Idx → α)
    (b : (⟨2, ![R, B]⟩ : Shape).Idx → α) (c : (⟨2, ![R, C]⟩ : Shape).Idx → α)
    (h : Shape.Concatenates [(⟨2, ![R, A]⟩ : Shape), ⟨2, ![R, B]⟩, ⟨2, ![R, C]⟩] ⟨2, ![R, T]⟩ 1)
    (r : Fin R) (k : Fin C) (kk : Fin T) (hk : kk.val = A + B + k.val) :
    concatenate ⟨2, ![R, T]⟩ 1 [⟨⟨2, ![R, A]⟩, a⟩, ⟨⟨2, ![R, B]⟩, b⟩, ⟨⟨2, ![R, C]⟩, c⟩] h (ix2 r kk) = c (ix2 r k) :=
  concatenate_apply_piece (t := ⟨2, ![R, T]⟩) (1 : Fin 2) [⟨⟨2, ![R, A]⟩, a⟩, ⟨⟨2, ![R, B]⟩, b⟩, ⟨⟨2, ![R, C]⟩, c⟩] h (ix2 r kk)
    2 (by show (2 : Nat) < 3; omega) ⟨2, ![R, C]⟩ c rfl rfl (A + B) rfl (ix2 r k)
    (fun d => match d with
      | ⟨0, _⟩ => fun _ => rfl
      | ⟨1, _⟩ => fun hd => absurd rfl hd)
    (show A + B + k.val = kk.val by omega)

/-- Rows off … of an n-by-b matrix cut out as an a'-by-b block at column offset 0: at (q, k), the matrix at
    (off + q, k). -/
theorem rows_block_apply {n b a' : Nat} (off : Nat) (X : (⟨2, ![n, b]⟩ : Shape).Idx → α)
    (hs : (⟨2, ![n, b]⟩ : Shape).Slices ![off, 0] ⟨2, ![a', b]⟩) (q : Fin a') (k : Fin b) (pp : Fin n)
    (hp : pp.val = off + q.val) :
    extractStridedSlice ⟨2, ![a', b]⟩ ![off, 0] X hs (ix2 q k) = X (ix2 pp k) :=
  extractStridedSlice_apply ![off, 0] X hs (ix2 q k) (ix2 pp k) (fun d => match d with
    | ⟨0, _⟩ => hp
    | ⟨1, _⟩ => (Nat.zero_add _).symm)

end Cert.Lib

end
-- ==== Proof.RefValue.lean ====
/-
  The reference program, stage by stage, against the same row-level layer. The reference lays the gathered source rows,
  the gathered destination rows and the edge attributes side by side into one 144-wide row per edge and multiplies by
  the whole first weight matrix; a sum over the 144 columns is the sum over the first 64, the next 64 and the last 16,
  so its hidden layer is the one computed from the three row blocks of the matrix. Its silu is spelt
  v · (1 / (1 + e^(−v))), which is v · σ(v) on every extended real. The node network is the same with two pieces,
  128 = 64 + 64. The gathers and the scatter-add stay closed: both programs apply the same ones.
-/
import proofs.«130165_j43817256354334_1_alg».proof.Proof.Gen.ReferenceIdeal.Read
import proofs.«130165_j43817256354334_1_alg».proof.Proof.Spec
import proofs.«130165_j43817256354334_1_alg».proof.Proof.LibRowReads
import proofs.«130165_j43817256354334_1_alg».proof.Proof.LibColsRead
import proofs.«130165_j43817256354334_1_alg».proof.Proof.LibThreeCols

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The reference's silu -/

/-- The reference's hidden activation is silu of its pre-activation. -/
theorem hidden_act (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (i : S1600000x64.Idx) :
    val_main_v23 (F := Ideal) x0 x1 x2 x3 x4 i = Cert.Mp.silu (val_main_v22 (F := Ideal) x0 x1 x2 x3 x4 i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  exact Cert.Mp.silu_spelt _

/-- The reference's message is silu of its second pre-activation. -/
theorem message_act (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (i : S1600000x64.Idx) :
    val_main_v28 (F := Ideal) x0 x1 x2 x3 x4 x5 x6 i = Cert.Mp.silu (val_main_v27 (F := Ideal) x0 x1 x2 x3 x4 x5 x6 i) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply]
  exact Cert.Mp.silu_spelt _

/-- The reference's result is silu of its last pre-activation. -/
theorem result_act (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (i : S100000x64.Idx) :
    val_main_v37 (F := Ideal) x0 x1 x2 x3 x4 x5 x6 x7 x8 i
      = Cert.Mp.silu (val_main_v36 (F := Ideal) x0 x1 x2 x3 x4 x5 x6 x7 x8 i) := by
  rw [val_main_v37_apply, val_main_call2_v5_apply, val_main_call2_v4_apply, val_main_call2_cst_0_apply,
    val_main_call2_v3_apply, val_main_call2_v2_apply, val_main_call2_cst_apply, val_main_call2_v1_apply,
    val_main_call2_v0_apply]
  exact Cert.Mp.silu_spelt _

/-! ## The pre-activations at an entry -/

/-- The first pre-activation at edge e, entry k: the three partial products and the bias. -/
theorem pre_hidden_at (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (e : Fin 1600000) (k : Fin 64) :
    val_main_v22 (F := Ideal) x0 x1 x2 x3 x4 (ix2 e k)
      = (((∑ q : Fin 64, val_main_v10 (F := Ideal) x0 x1 (ix2 e q) * x3 (ix2 (⟨q.val, by omega⟩ : Fin 144) k))
          + (∑ q : Fin 64, val_main_v17 (F := Ideal) x0 x1 (ix2 e q) * x3 (ix2 (⟨64 + q.val, by omega⟩ : Fin 144) k)))
          + (∑ q : Fin 16, x2 (ix2 e q) * x3 (ix2 (⟨128 + q.val, by omega⟩ : Fin 144) k)))
        + x4 (ix1 k) := by
  have c1 : ∀ q : Fin 64, val_main_v18 (F := Ideal) x0 x1 x2 (ix2 e (⟨q.val, by omega⟩ : Fin 144))
      = val_main_v10 (F := Ideal) x0 x1 (ix2 e q) := fun q =>
    Cert.Lib.concatenate_cols3_first _ _ _ _ e q (⟨q.val, by omega⟩ : Fin 144) rfl
  have c2 : ∀ q : Fin 64, val_main_v18 (F := Ideal) x0 x1 x2 (ix2 e (⟨64 + q.val, by omega⟩ : Fin 144))
      = val_main_v17 (F := Ideal) x0 x1 (ix2 e q) := fun q =>
    Cert.Lib.concatenate_cols3_second _ _ _ _ e q (⟨64 + q.val, by omega⟩ : Fin 144) rfl
  have c3 : ∀ q : Fin 16, val_main_v18 (F := Ideal) x0 x1 x2 (ix2 e (⟨128 + q.val, by omega⟩ : Fin 144))
      = x2 (ix2 e q) := fun q =>
    Cert.Lib.concatenate_cols3_third _ _ _ _ e q (⟨128 + q.val, by omega⟩ : Fin 144) rfl
  unfold val_main_v22 val_main_v19 val_main_v21 val_main_v20
  generalize val_main_v18 (F := Ideal) x0 x1 x2 = y at c1 c2 c3 ⊢
  rw [addf_apply, Cert.Lib.dotGeneral_at dot_S1600000x144_S144x64_S1600000x64_1_0_0_1_n_n rfl rfl rfl rfl rfl rfl,
    Cert.Lib.bcastInDim_vecRows_apply, Cert.Mp.sum_144]
  simp only [c1, c2, c3]

/-- The second pre-activation at edge e, entry j. -/
theorem pre_message_at (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (e : Fin 1600000) (j : Fin 64) :
    val_main_v27 (F := Ideal) x0 x1 x2 x3 x4 x5 x6 (ix2 e j)
      = (∑ k : Fin 64, val_main_v23 (F := Ideal) x0 x1 x2 x3 x4 (ix2 e k) * x5 (ix2 k j)) + x6 (ix1 j) := by
  unfold val_main_v27 val_main_v24 val_main_v26 val_main_v25
  rw [addf_apply, Cert.Lib.dotGeneral_at dot_S1600000x64_S64x64_S1600000x64_1_0_0_1_n_n rfl rfl rfl rfl rfl rfl,
    Cert.Lib.bcastInDim_vecRows_apply]

/-- The last pre-activation at node r, entry j: the node's own features and its aggregate against the two row blocks
    of the last weight matrix, and the bias. -/
theorem pre_result_at (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (r : Fin 100000) (j : Fin 64) :
    val_main_v36 (F := Ideal) x0 x1 x2 x3 x4 x5 x6 x7 x8 (ix2 r j)
      = ((∑ q : Fin 64, x0 (ix2 r q) * x7 (ix2 (⟨q.val, by omega⟩ : Fin 128) j))
          + (∑ q : Fin 64, val_main_v31 (F := Ideal) x0 x1 x2 x3 x4 x5 x6 (ix2 r q) * x7 (ix2 (⟨64 + q.val, by omega⟩ : Fin 128) j)))
        + x8 (ix1 j) := by
  have c1 : ∀ q : Fin 64, val_main_v32 (F := Ideal) x0 x1 x2 x3 x4 x5 x6 (ix2 r (⟨q.val, by omega⟩ : Fin 128))
      = x0 (ix2 r q) := fun q =>
    Cert.Lib.concatenate_cols_left _ _ _ r q (⟨q.val, by omega⟩ : Fin 128) rfl
  have c2 : ∀ q : Fin 64, val_main_v32 (F := Ideal) x0 x1 x2 x3 x4 x5 x6 (ix2 r (⟨64 + q.val, by omega⟩ : Fin 128))
      = val_main_v31 (F := Ideal) x0 x1 x2 x3 x4 x5 x6 (ix2 r q) := fun q =>
    Cert.Lib.concatenate_cols_right _ _ _ r q (⟨64 + q.val, by omega⟩ : Fin 128) rfl
  unfold val_main_v36 val_main_v33 val_main_v35 val_main_v34
  generalize val_main_v32 (F := Ideal) x0 x1 x2 x3 x4 x5 x6 = y at c1 c2 ⊢
  rw [addf_apply, Cert.Lib.dotGeneral_at dot_S100000x128_S128x64_S100000x64_1_0_0_1_n_n rfl rfl rfl rfl rfl rfl,
    Cert.Lib.bcastInDim_vecRows_apply, Cert.Mp.sum_128]
  simp only [c1, c2]

/-! ## The reference's messages and result are the layer's -/

/-- THE REFERENCE'S MESSAGES are the layer's messages of the gathered rows, with the first weight matrix given by its
    three row blocks and the biases as rows. -/
theorem messages_eq (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal))
    (hA : (⟨2, ![144, 64]⟩ : Shape).Slices ![0, 0] ⟨2, ![64, 64]⟩) (hB : (⟨2, ![144, 64]⟩ : Shape).Slices ![64, 0] ⟨2, ![64, 64]⟩)
    (hC : (⟨2, ![144, 64]⟩ : Shape).Slices ![128, 0] ⟨2, ![16, 64]⟩)
    (hb : (⟨1, ![64]⟩ : Shape).BroadcastsInDim ⟨2, ![1, 64]⟩ ![1]) :
    val_main_v28 (F := Ideal) x0 x1 x2 x3 x4 x5 x6
      = Cert.Mp.messages (val_main_v10 (F := Ideal) x0 x1) (val_main_v17 (F := Ideal) x0 x1) x2
          (extractStridedSlice ⟨2, ![64, 64]⟩ ![0, 0] x3 hA) (extractStridedSlice ⟨2, ![64, 64]⟩ ![64, 0] x3 hB)
          (extractStridedSlice ⟨2, ![16, 64]⟩ ![128, 0] x3 hC) (broadcastInDim ⟨2, ![1, 64]⟩ ![1] hb x4) x5
          (broadcastInDim ⟨2, ![1, 64]⟩ ![1] hb x6) := by
  have eA : ∀ (q k : Fin 64), extractStridedSlice ⟨2, ![64, 64]⟩ ![0, 0] x3 hA (ix2 q k)
      = x3 (ix2 (⟨q.val, by omega⟩ : Fin 144) k) :=
    fun q k => Cert.Lib.rows_block_apply 0 x3 hA q k _ (Nat.zero_add _).symm
  have eB : ∀ (q k : Fin 64), extractStridedSlice ⟨2, ![64, 64]⟩ ![64, 0] x3 hB (ix2 q k)
      = x3 (ix2 (⟨64 + q.val, by omega⟩ : Fin 144) k) :=
    fun q k => Cert.Lib.rows_block_apply 64 x3 hB q k _ rfl
  have eC : ∀ (q : Fin 16) (k : Fin 64), extractStridedSlice ⟨2, ![16, 64]⟩ ![128, 0] x3 hC (ix2 q k)
      = x3 (ix2 (⟨128 + q.val, by omega⟩ : Fin 144) k) :=
    fun q k => Cert.Lib.rows_block_apply 128 x3 hC q k _ rfl
  have eb4 : ∀ k : Fin 64, broadcastInDim ⟨2, ![1, 64]⟩ ![1] hb x4 (ix2 (0 : Fin 1) k) = x4 (ix1 k) :=
    fun k => Cert.Lib.bcastInDim_vecRow_apply hb x4 0 k
  have eb6 : ∀ k : Fin 64, broadcastInDim ⟨2, ![1, 64]⟩ ![1] hb x6 (ix2 (0 : Fin 1) k) = x6 (ix1 k) :=
    fun k => Cert.Lib.bcastInDim_vecRow_apply hb x6 0 k
  funext i
  obtain ⟨e, j, rfl⟩ : ∃ (e : Fin 1600000) (j : Fin 64), i = ix2 e j := ⟨i 0, i 1, eq_ix2 i⟩
  rw [message_act, pre_message_at]
  unfold Cert.Mp.messages Cert.Mp.message Cert.Mp.hidden
  simp only [Cert.Mp.row_ix2, Cert.Mp.col_ix2, hidden_act, pre_hidden_at, eb4, eb6, eA, eB, eC]

/-- THE REFERENCE'S RESULT is the node layer of the node table and the reference's aggregate, with the last weight
    matrix given by its two row blocks and the bias as a row. -/
theorem nodes_eq (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S144x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal))
    (hA : (⟨2, ![128, 64]⟩ : Shape).Slices ![0, 0] ⟨2, ![64, 64]⟩) (hB : (⟨2, ![128, 64]⟩ : Shape).Slices ![64, 0] ⟨2, ![64, 64]⟩)
    (hb : (⟨1, ![64]⟩ : Shape).BroadcastsInDim ⟨2, ![1, 64]⟩ ![1]) :
    val_main_v37 (F := Ideal) x0 x1 x2 x3 x4 x5 x6 x7 x8
      = Cert.Mp.nodes x0 (val_main_v31 (F := Ideal) x0 x1 x2 x3 x4 x5 x6)
          (extractStridedSlice ⟨2, ![64, 64]⟩ ![0, 0] x7 hA) (extractStridedSlice ⟨2, ![64, 64]⟩ ![64, 0] x7 hB)
          (broadcastInDim ⟨2, ![1, 64]⟩ ![1] hb x8) := by
  have eA : ∀ (q k : Fin 64), extractStridedSlice ⟨2, ![64, 64]⟩ ![0, 0] x7 hA (ix2 q k)
      = x7 (ix2 (⟨q.val, by omega⟩ : Fin 128) k) :=
    fun q k => Cert.Lib.rows_block_apply 0 x7 hA q k _ (Nat.zero_add _).symm
  have eB : ∀ (q k : Fin 64), extractStridedSlice ⟨2, ![64, 64]⟩ ![64, 0] x7 hB (ix2 q k)
      = x7 (ix2 (⟨64 + q.val, by omega⟩ : Fin 128) k) :=
    fun q k => Cert.Lib.rows_block_apply 64 x7 hB q k _ rfl
  have eb8 : ∀ k : Fin 64, broadcastInDim ⟨2, ![1, 64]⟩ ![1] hb x8 (ix2 (0 : Fin 1) k) = x8 (ix1 k) :=
    fun k => Cert.Lib.bcastInDim_vecRow_apply hb x8 0 k
  funext i
  obtain ⟨r, j, rfl⟩ : ∃ (r : Fin 100000) (j : Fin 64), i = ix2 r j := ⟨i 0, i 1, eq_ix2 i⟩
  rw [result_act, pre_result_at]
  unfold Cert.Mp.nodes Cert.Mp.nodeOut
  simp only [Cert.Mp.row_ix2, Cert.Mp.col_ix2, eb8, eA, eB]

end Cert.ReferenceIdeal.RefValue

end
-- ==== Proof.Bridge.lean ====
/-
  The two programs compute one function. The reference's result, stage by stage, is the node layer of the node table
  and of its aggregate; its aggregate is the scatter-add, along the destination endpoints, of its messages; its
  messages are the layer's messages of the gathered rows. The endpoint rows, the gathers and the scatter-add are the
  same operations in both programs, so they are carried closed and never opened: what is compared is only that the
  values going into them are equal.
-/
import proofs.«130165_j43817256354334_1_alg».proof.Proof.KernelValue
import proofs.«130165_j43817256354334_1_alg».proof.Proof.RefValue

set_option maxRecDepth 16384

noncomputable section

namespace Cert.Bridge

open Idealize.ShloMosaic Idealize.ShloMosaic.TcCoe
open Cert.KernelIdeal Cert.KernelIdeal.Gen Cert.KernelIdeal.HostRead Cert.KernelIdeal.KernelValue
open Cert.ReferenceIdeal.Read Cert.ReferenceIdeal.RefValue

variable (x0 : (⟨Cert.KernelIdeal.S100000x64, .f32⟩ : BufTy).Contents (Elt Ideal)) (x1 : (⟨Cert.KernelIdeal.S2x1600000, .i32⟩ : BufTy).Contents (Elt Ideal))
  (x2 : (⟨Cert.KernelIdeal.S1600000x16, .f32⟩ : BufTy).Contents (Elt Ideal)) (x3 : (⟨Cert.KernelIdeal.S144x64, .f32⟩ : BufTy).Contents (Elt Ideal))
  (x4 : (⟨Cert.KernelIdeal.S64, .f32⟩ : BufTy).Contents (Elt Ideal)) (x5 : (⟨Cert.KernelIdeal.S64x64, .f32⟩ : BufTy).Contents (Elt Ideal))
  (x6 : (⟨Cert.KernelIdeal.S64, .f32⟩ : BufTy).Contents (Elt Ideal)) (x7 : (⟨Cert.KernelIdeal.S128x64, .f32⟩ : BufTy).Contents (Elt Ideal))
  (x8 : (⟨Cert.KernelIdeal.S64, .f32⟩ : BufTy).Contents (Elt Ideal))

/-- The reference gathers the source rows as the kernel's program does. -/
theorem gather_src : val_main_v10 (F := Ideal) x0 x1 = gathered x0 (endpoints0 x1) := rfl

/-- … and the destination rows. -/
theorem gather_dst : val_main_v17 (F := Ideal) x0 x1 = gathered x0 (endpoints1 x1) := rfl

/-- The reference's aggregate is the kernel program's scatter-add of the reference's messages. -/
theorem aggregate_eq :
    val_main_v31 (F := Ideal) x0 x1 x2 x3 x4 x5 x6
      = aggregated (endpoints1 x1) (val_main_v28 (F := Ideal) x0 x1 x2 x3 x4 x5 x6) := rfl

/-- THE REFERENCE'S RESULT is the kernel's layer of the same nine arrays. -/
theorem reference_is_layer :
    val_main_v37 (F := Ideal) x0 x1 x2 x3 x4 x5 x6 x7 x8 = layer x0 x1 x2 x3 x4 x5 x6 x7 x8 := by
  rw [nodes_eq x0 x1 x2 x3 x4 x5 x6 x7 x8 slices_S128x64_S64x64_0_0
      slices_S128x64_S64x64_64_0 bcast_S64_S1x64_1,
    aggregate_eq,
    messages_eq x0 x1 x2 x3 x4 x5 x6 slices_S144x64_S64x64_0_0
      slices_S144x64_S64x64_64_0 slices_S144x64_S16x64_128_0
      bcast_S64_S1x64_1,
    gather_src, gather_dst]
  rfl

end Cert.Bridge

end
-- ==== Proof.lean ====
/-
  One message-passing layer of a graph network — an edge network on the gathered endpoint rows and the edge attributes,
  a scatter-add of its messages onto the destination nodes, a node network on the node table and the aggregate —
  computed by two tiled kernels with host operations between them, against the plain reference. On the extended reals
  the two programs compute the same matrix whatever the inputs: the kernels split the first layer of each network into
  partial products over the row blocks of its weight matrix where the reference multiplies one concatenated row, which
  is the splitting of a finite sum; a change of number format is the identity; and the two spellings of silu are one
  function. The gathers and the scatter-add are the same host operations in both programs.

  The three frames are the generated ones (the reference's is its generated run with the result dropped); no rewrite
  was applied when the kernel was idealized, so nothing is owed for that; the value claim pairs the kernel's run, read
  through its two regions and two host stretches, with the reference's generated run.
-/
import proofs.«130165_j43817256354334_1_alg».proof.Defs
import proofs.«130165_j43817256354334_1_alg».proof.Proof.Gen.Kernel
import proofs.«130165_j43817256354334_1_alg».proof.Proof.Gen.Kernel.Skeleton
import proofs.«130165_j43817256354334_1_alg».proof.Proof.Gen.Kernel.Launch
import proofs.«130165_j43817256354334_1_alg».proof.Proof.Gen.Kernel.Points
import proofs.«130165_j43817256354334_1_alg».proof.Proof.Gen.Kernel.Frame
import proofs.«130165_j43817256354334_1_alg».proof.Proof.Gen.KernelIdeal
import proofs.«130165_j43817256354334_1_alg».proof.Proof.Gen.KernelIdeal.Skeleton
import proofs.«130165_j43817256354334_1_alg».proof.Proof.Gen.KernelIdeal.Launch
import proofs.«130165_j43817256354334_1_alg».proof.Proof.Gen.KernelIdeal.Points
import proofs.«130165_j43817256354334_1_alg».proof.Proof.Gen.KernelIdeal.Frame
import proofs.«130165_j43817256354334_1_alg».proof.Proof.Gen.ReferenceIdeal
import proofs.«130165_j43817256354334_1_alg».proof.Proof.Gen.Pre_finite_inputs
import proofs.«130165_j43817256354334_1_alg».proof.Proof.Gen.ReferenceIdeal.Run
import proofs.«130165_j43817256354334_1_alg».proof.Proof.Gen.ReferenceIdeal.Read
import proofs.«130165_j43817256354334_1_alg».proof.Proof.KernelValue
import proofs.«130165_j43817256354334_1_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments both programs end with the layer of those arguments in their
    result buffers, and their arguments as launched. -/
theorem algebraic : Cert.algebraic_KernelIdeal_ReferenceIdeal := by
  intro m ρ m' ρ' _ hagree
  refine ⟨fun c => Cert.KernelIdeal.KernelValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.Bridge.reference_is_layer _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
